-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048 .f32) (main_arg6 : FVec F S2048 .f32) (main_arg7 : FVec F S2048 .f32) (main_arg8 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x2048 .f32) (main_arg1 : FVec F S2048x2048 .f32) (main_arg2 : FVec F S2048 .f32) (main_arg3 : FVec F S2048x2048 .f32) (main_arg4 : FVec F S2048 .f32) (main_arg5 : FVec F S2048 .f32) (main_arg6 : FVec F S2048 .f32) (main_arg7 : FVec F S2048 .f32) (main_arg8 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S8192x2048.size a
  hwx0_9 : ∀ i : grid0.Coords, EltTy.bits .f32 = 32 ∨ (Rect.block (s := S8192x2048) S256x2048.size (cc0_transform_9 i) (hinb0_9 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S2048x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S1x2048, .f32⟩
  | .hbm, ⟨73, _⟩ => ⟨S8192x2048, .f32⟩
  | .hbm, ⟨74, _⟩ => ⟨S8192x2048, .f32⟩
  | .hbm, ⟨75, _⟩ => ⟨S2048x2048, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call1_cst : Ref sig .tc := ⟨.hbm, 81, rfl⟩
abbrev main_call1_v0 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x2048_S2048x2048_1_0 : S2048x2048.Transposes [1, 0] S2048x2048
  bcast_S_S8192x2048 : S_.BroadcastsInDim S8192x2048 (![] : Fin 0 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.Rows.lean ====
/-
  The function both programs compute, one output row at a time.

  A row `x` of 2048 numbers is normalised — centred at its mean, scaled by the reciprocal root of its variance
  plus a small constant, then by a gain and shifted by a bias —, sent through an affine map `W · + b`, clipped
  below at zero, normalised again, sent through a second affine map, added to `x` and clipped again.  Nothing
  mixes rows, so the result at `(r, c)` is entry `c` of that function of row `r`.

  The two programs group the three-factor product of the normalisation differently: one multiplies the centred
  entry by (root · gain), the other multiplies (centred entry · root) by the gain.  Multiplication of extended
  reals is associative, so the two are equal at every value, the infinities included; no finiteness is used.
  The float constants stay as their bit patterns: both programs spell the same three words.
-/
import Idealize.ShloMosaic.PureOps.Ideal
import Idealize.ShloMosaic.PureOps.Ideal.Laws
import Idealize.ShloMosaic.Lib.ValueIdx

noncomputable section

namespace Cert.Rows

open Idealize.ShloMosaic Idealize.ShloMosaic.ValueIdx

/-- The row length as the float both programs divide by (2048.0). -/
abbrev width : EReal := Ideal.ofBits .f32 0x45000000#32
/-- The constant added to the variance (the float nearest 1e-5). -/
abbrev eps : EReal := Ideal.ofBits .f32 0x3727C5AC#32
/-- The zero the clipping compares with. -/
abbrev zero : EReal := Ideal.ofBits .f32 0x00000000#32

/-- The mean of a row: its sum divided by the row length. -/
def mean (v : Fin 2048 → EReal) : EReal := Ideal.div (∑ k, v k) width

/-- The reciprocal root of the row's variance plus `eps`; the variance is the mean of the squared deviations. -/
def rstd (v : Fin 2048 → EReal) : EReal :=
  Ideal.rsqrt (mean (fun k => (v k - mean v) * (v k - mean v)) + eps)

/-- The normalised row with the gain folded into the row's factor: (v - mean) · (rstd · g) + be. -/
def normFolded (v g be : Fin 2048 → EReal) (k : Fin 2048) : EReal := (v k - mean v) * (rstd v * g k) + be k

/-- The normalised row as the textbook writes it: ((v - mean) · rstd) · g + be. -/
def norm (v g be : Fin 2048 → EReal) (k : Fin 2048) : EReal := (v k - mean v) * rstd v * g k + be k

/-- The two groupings agree: multiplication of extended reals is associative. -/
theorem normFolded_eq_norm (v g be : Fin 2048 → EReal) : normFolded v g be = norm v g be := by
  funext k
  unfold normFolded norm
  rw [mul_assoc]

/-- An affine map of a row: entry `c` is the row against row `c` of the weights, plus the bias. -/
def affine (a : Fin 2048 → EReal) (W : Fin 2048 → Fin 2048 → EReal) (b : Fin 2048 → EReal) (c : Fin 2048) : EReal :=
  (∑ k, a k * W c k) + b c

/-- Clipping below at zero. -/
def relu (a : EReal) : EReal := max a zero

/-- The hidden row: the first normalisation, the first affine map, clipped. -/
def hidden (x g1 be1 : Fin 2048 → EReal) (W1 : Fin 2048 → Fin 2048 → EReal) (b1 : Fin 2048 → EReal) (j : Fin 2048) : EReal :=
  relu (affine (norm x g1 be1) W1 b1 j)

/-- The whole block on one row. -/
def block (x g1 be1 : Fin 2048 → EReal) (W1 : Fin 2048 → Fin 2048 → EReal) (b1 g2 be2 : Fin 2048 → EReal)
    (W2 : Fin 2048 → Fin 2048 → EReal) (b2 : Fin 2048 → EReal) (c : Fin 2048) : EReal :=
  relu (affine (norm (hidden x g1 be1 W1 b1) g2 be2) W2 b2 c + x c)

/-- The result array: entry `(r, c)` is entry `c` of the block applied to row `r` of `X`.  The arguments come in
    the programs' order: the input, the first weights and bias, the second weights and bias, then the two gains
    and shifts. -/
def result (X : FVec Ideal ⟨2, ![8192, 2048]⟩ .f32) (W1 : FVec Ideal ⟨2, ![2048, 2048]⟩ .f32) (b1 : FVec Ideal ⟨1, ![2048]⟩ .f32)
    (W2 : FVec Ideal ⟨2, ![2048, 2048]⟩ .f32) (b2 g1 be1 g2 be2 : FVec Ideal ⟨1, ![2048]⟩ .f32) :
    FVec Ideal ⟨2, ![8192, 2048]⟩ .f32 :=
  fun i => block (fun k => X (ix2 (i 0) k)) (fun k => g1 (ix1 k)) (fun k => be1 (ix1 k)) (fun c k => W1 (ix2 c k))
    (fun k => b1 (ix1 k)) (fun k => g2 (ix1 k)) (fun k => be2 (ix1 k)) (fun c k => W2 (ix2 c k)) (fun k => b2 (ix1 k)) (i 1)

end Cert.Rows

end
-- ==== Proof.KernelBody.lean ====
/-
  The kernel body at one entry of its block.

  The body works on a block of 256 rows.  Its arithmetic is three repeated pieces: spread a row's mean over the
  row; normalise (centre by a given spread mean, scale by the reciprocal root of the variance times the gain, add
  the shift); project (a matrix product with the weights block, which already holds the transposed weights, plus
  the bias row).  Each piece is named once and read at an entry `(p, q)` of the block: it depends only on row `p`
  of its operand.  The three payloads of the body are then compositions of these pieces, and the stored value at
  `(p, q)` is entry `q` of the whole block function of row `p`.
-/
import proofs.«105974_j57140244906119_2_alg».proof.Proof.Gen.KernelIdeal.Skeleton
import proofs.«105974_j57140244906119_2_alg».proof.Proof.LibKeepdims
import proofs.«105974_j57140244906119_2_alg».proof.Proof.LibRowOps
import proofs.«105974_j57140244906119_2_alg».proof.Proof.Rows
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open Cert.LibKeepdims Cert.KernelBody

/-- A row's mean, kept as a column and spread back over the row. -/
def spreadMean (v : FVec Ideal S256x2048 .f32) : FVec Ideal S256x2048 .f32 :=
  broadcastTo S256x2048
    (divf (shapeCast S256x1 (multiReduction (F := Ideal) .add [1] S256 v 0x00000000#32 reduces_S256x2048_S256 (.inl rfl) rfl) shapeCasts_S256_S256x1)
      (broadcast S256x1 (Scalar.ofBits (F := Ideal) .f32 0x45000000#32)))
    broadcasts_S256x1_S256x2048

/-- The normalisation of a block whose spread row means are `mu`, with gain row `g` and shift row `be`. -/
def normalise (v mu : FVec Ideal S256x2048 .f32) (g be : FVec Ideal S1x2048 .f32) : FVec Ideal S256x2048 .f32 :=
  addf
    (mulf (subf v mu)
      (mulf
        (broadcastTo S256x2048
          (rsqrt (addf
            (divf (shapeCast S256x1 (multiReduction (F := Ideal) .add [1] S256 (mulf (subf v mu) (subf v mu)) 0x00000000#32 reduces_S256x2048_S256 (.inl rfl) rfl) shapeCasts_S256_S256x1)
              (broadcast S256x1 (Scalar.ofBits (F := Ideal) .f32 0x45000000#32)))
            (broadcast S256x1 (Scalar.ofBits (F := Ideal) .f32 0x3727C5AC#32))))
          broadcasts_S256x1_S256x2048)
        (broadcastTo S256x2048 (shapeCast S1x2048 g shapeCasts_S1x2048_S1x2048) broadcasts_S1x2048_S256x2048)))
    (broadcastTo S256x2048 (shapeCast S1x2048 be shapeCasts_S1x2048_S1x2048) broadcasts_S1x2048_S256x2048)

/-- The projection: the block times the weights block, plus the bias row. -/
def project (a : FVec Ideal S256x2048 .f32) (w : FVec Ideal S2048x2048 .bf16) (b : FVec Ideal S1x2048 .f32) : FVec Ideal S256x2048 .f32 :=
  addf
    (matmul dot_S256x2048_S2048x2048_S256x2048_1_0_0_1_n_n none (truncf .bf16 a bitsLt_bf16_f32 : FVec Ideal S256x2048 .bf16)
      (shapeCast S2048x2048 w shapeCasts_S2048x2048_S2048x2048 : FVec Ideal S2048x2048 .bf16) (constant (F := Ideal) S256x2048 .f32 0x00000000#32))
    (broadcastTo S256x2048 (shapeCast S1x2048 b shapeCasts_S1x2048_S1x2048) broadcasts_S1x2048_S256x2048)

/-- Clipping a block below at zero. -/
def clip (a : FVec Ideal S256x2048 .f32) : FVec Ideal S256x2048 .f32 :=
  maximumf a (broadcast S256x2048 (Scalar.ofBits (F := Ideal) .f32 0x00000000#32))

/-! ## The payloads are these pieces composed -/

theorem pay2_eq (v0 : FVec Ideal S256x2048 .f32) (g1 be1 : FVec Ideal S1x2048 .f32) (w1 : FVec Ideal S2048x2048 .bf16) (b1 : FVec Ideal S1x2048 .f32) :
    k0_pay2 (F := Ideal) v0 g1 be1 w1 b1 = clip (project (normalise v0 (spreadMean v0) g1 be1) w1 b1) := rfl

theorem pay3_eq (v0 : FVec Ideal S256x2048 .f32) (g1 be1 : FVec Ideal S1x2048 .f32) (w1 : FVec Ideal S2048x2048 .bf16) (b1 : FVec Ideal S1x2048 .f32) :
    k0_pay3 (F := Ideal) v0 g1 be1 w1 b1 = spreadMean (k0_pay2 (F := Ideal) v0 g1 be1 w1 b1) := rfl

theorem pay1_eq (v0 : FVec Ideal S256x2048 .f32) (h mu : FVec Ideal S256x2048 .f32) (g2 be2 : FVec Ideal S1x2048 .f32) (w2 : FVec Ideal S2048x2048 .bf16) (b2 : FVec Ideal S1x2048 .f32) :
    k0_pay1 (F := Ideal) v0 h mu g2 be2 w2 b2 = clip (addf (project (normalise h mu g2 be2) w2 b2) v0) := rfl

/-! ## Each piece at an entry -/

/-- The lane sum of a block at row `p` is the sum of that row. -/
theorem rowsum_at (v : FVec Ideal S256x2048 .f32) (p : Fin 256) :
    multiReduction (F := Ideal) .add [1] S256 v 0x00000000#32 reduces_S256x2048_S256 (.inl rfl) rfl (ix1 p)
      = ∑ k : Fin 2048, v (ix2 p k) :=
  rowsum_apply v 0x00000000#32 reduces_S256x2048_S256 (.inl rfl) rfl p

/-- The spread mean at `(p, q)` is the mean of row `p`. -/
theorem spreadMean_apply (v : FVec Ideal S256x2048 .f32) (p : Fin 256) (q : Fin 2048) :
    spreadMean v (ix2 p q) = Rows.mean (fun k => v (ix2 p k)) := by
  unfold spreadMean Rows.mean
  rw [broadcastTo_col_apply, divf_apply, shapeCast_col_apply, rowsum_at, broadcast_apply]
  rfl

/-- The normalised block at `(p, q)`, when `mu` holds row `p`'s mean along row `p`, is the folded normalisation of
    row `p` at `q`. -/
theorem normalise_apply (v mu : FVec Ideal S256x2048 .f32) (g be : FVec Ideal S1x2048 .f32) (p : Fin 256) (q : Fin 2048)
    (hmu : ∀ k : Fin 2048, mu (ix2 p k) = Rows.mean (fun k => v (ix2 p k))) :
    normalise v mu g be (ix2 p q)
      = Rows.normFolded (fun k => v (ix2 p k)) (fun k => g (ix2 (0 : Fin 1) k)) (fun k => be (ix2 (0 : Fin 1) k)) q := by
  unfold normalise Rows.normFolded Rows.rstd
  simp only [addf_apply, mulf_apply, subf_apply, divf_apply, broadcast_apply, shapeCast_self, rsqrt,
    broadcastTo_col_apply, broadcastTo_row_apply, shapeCast_col_apply, hmu]
  rw [rowsum_at]
  simp only [mulf_apply, subf_apply, hmu]
  rfl

/-- The projection at `(p, q)`: row `p` against column `q` of the weights block, plus the bias at `q`. -/
theorem project_apply (a : FVec Ideal S256x2048 .f32) (w : FVec Ideal S2048x2048 .bf16) (b : FVec Ideal S1x2048 .f32) (p : Fin 256) (q : Fin 2048) :
    project a w b (ix2 p q) = (∑ k : Fin 2048, a (ix2 p k) * w (ix2 k q)) + b (ix2 (0 : Fin 1) q) := by
  unfold project
  rw [addf_apply, broadcastTo_row_apply, shapeCast_self, shapeCast_self]
  refine congrArg (· + b (ix2 (0 : Fin 1) q)) ?_
  exact matmul_plain_zero_apply dot_S256x2048_S2048x2048_S256x2048_1_0_0_1_n_n_wf none _ _ p q

/-- Clipping at an entry. -/
theorem clip_apply (a : FVec Ideal S256x2048 .f32) (i : S256x2048.Idx) : clip a i = Rows.relu (a i) := rfl

/-! ## The stored value at an entry -/

/-- The hidden block at `(p, q)` is the hidden row of row `p` at `q`; the weights block holds the transposed weights,
    so row `c` of the weights is column `c` of the block. -/
theorem hidden_apply (v0 : FVec Ideal S256x2048 .f32) (g1 be1 : FVec Ideal S1x2048 .f32) (w1 : FVec Ideal S2048x2048 .bf16) (b1 : FVec Ideal S1x2048 .f32)
    (p : Fin 256) (q : Fin 2048) :
    k0_pay2 (F := Ideal) v0 g1 be1 w1 b1 (ix2 p q)
      = Rows.hidden (fun k => v0 (ix2 p k)) (fun k => g1 (ix2 (0 : Fin 1) k)) (fun k => be1 (ix2 (0 : Fin 1) k))
          (fun c k => w1 (ix2 k c)) (fun k => b1 (ix2 (0 : Fin 1) k)) q := by
  rw [pay2_eq, clip_apply, project_apply]
  unfold Rows.hidden Rows.affine
  rw [← Rows.normFolded_eq_norm]
  refine congrArg Rows.relu (congrArg (· + b1 (ix2 (0 : Fin 1) q)) (Finset.sum_congr rfl fun k _ => ?_))
  rw [normalise_apply v0 (spreadMean v0) g1 be1 p k (fun k' => spreadMean_apply v0 p k')]

/-- The value the body stores at `(p, q)` of its output block is the whole block function of row `p` at `q`. -/
theorem stored_apply (v0 : FVec Ideal S256x2048 .f32) (g1 be1 : FVec Ideal S1x2048 .f32) (w1 : FVec Ideal S2048x2048 .bf16) (b1 : FVec Ideal S1x2048 .f32)
    (g2 be2 : FVec Ideal S1x2048 .f32) (w2 : FVec Ideal S2048x2048 .bf16) (b2 : FVec Ideal S1x2048 .f32) (p : Fin 256) (q : Fin 2048) :
    k0_pay1 (F := Ideal) v0 (k0_pay2 (F := Ideal) v0 g1 be1 w1 b1) (k0_pay3 (F := Ideal) v0 g1 be1 w1 b1) g2 be2 w2 b2 (ix2 p q)
      = Rows.block (fun k => v0 (ix2 p k)) (fun k => g1 (ix2 (0 : Fin 1) k)) (fun k => be1 (ix2 (0 : Fin 1) k))
          (fun c k => w1 (ix2 k c)) (fun k => b1 (ix2 (0 : Fin 1) k))
          (fun k => g2 (ix2 (0 : Fin 1) k)) (fun k => be2 (ix2 (0 : Fin 1) k))
          (fun c k => w2 (ix2 k c)) (fun k => b2 (ix2 (0 : Fin 1) k)) q := by
  rw [pay1_eq, clip_apply, addf_apply, project_apply]
  unfold Rows.block Rows.affine
  rw [← Rows.normFolded_eq_norm]
  refine congrArg Rows.relu (congrArg (· + v0 (ix2 p q)) (congrArg (· + b2 (ix2 (0 : Fin 1) q)) (Finset.sum_congr rfl fun k _ => ?_)))
  rw [normalise_apply (k0_pay2 (F := Ideal) v0 g1 be1 w1 b1) (k0_pay3 (F := Ideal) v0 g1 be1 w1 b1) g2 be2 p k
    (fun k' => by rw [pay3_eq, spreadMean_apply])]
  refine congrArg (fun f => Rows.normFolded f _ _ k * w2 (ix2 k q)) (funext fun j => ?_)
  exact hidden_apply v0 g1 be1 w1 b1 p j

end Cert.KernelIdeal.Body

end
-- ==== Proof.KernelWhole.lean ====
/-
  From the blocks to the whole result array.

  The launch cuts the input and the output into 32 blocks of 256 rows; every other operand is one block, the same
  at every point: the two weight matrices, transposed beforehand, and the six row vectors, recast as 1 × 2048 rows.
  Point `t` reads rows 256·t … 256·t + 255 of the input and writes the same rows of the result.  The body computes
  each output row from the matching input row alone, so what point `t` writes back is block `t` of ONE function of
  the argument arrays: the block function applied row by row.  The 32 blocks cover the result array, so the array
  ends holding that function.
-/
import proofs.«105974_j57140244906119_2_alg».proof.Proof.Gen.KernelIdeal.Value
import proofs.«105974_j57140244906119_2_alg».proof.Proof.KernelBody
import proofs.«105974_j57140244906119_2_alg».proof.Proof.Rows
import proofs.«105974_j57140244906119_2_alg».proof.Proof.LibRowOps
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The array the run leaves in the result: the block function of the argument arrays, row by row. -/
abbrev whole (c : Dev nD) : S8192x2048.Idx → EReal :=
  Rows.result (m ((c : Thread nD τ).loc main_arg0) : S8192x2048.Idx → EReal) (m ((c : Thread nD τ).loc main_arg1) : S2048x2048.Idx → EReal) (m ((c : Thread nD τ).loc main_arg2) : S2048.Idx → EReal)
    (m ((c : Thread nD τ).loc main_arg3) : S2048x2048.Idx → EReal) (m ((c : Thread nD τ).loc main_arg4) : S2048.Idx → EReal) (m ((c : Thread nD τ).loc main_arg5) : S2048.Idx → EReal)
    (m ((c : Thread nD τ).loc main_arg6) : S2048.Idx → EReal) (m ((c : Thread nD τ).loc main_arg7) : S2048.Idx → EReal) (m ((c : Thread nD τ).loc main_arg8) : S2048.Idx → EReal)

/-! ## The arrays the region finds -/

/-- Window 1's array is argument 1 transposed (the change of float format is the identity). -/
theorem V_w1 (c : Dev nD) : (V m c main_v1 : S2048x2048.Idx → EReal)
    = truncf .bf16 (transpose S2048x2048 [1, 0] (m ((c : Thread nD τ).loc main_arg1) : S2048x2048.Idx → EReal) transposes_S2048x2048_S2048x2048_1_0 : FVec Ideal S2048x2048 .f32) bitsLt_bf16_f32 := by
  dsimp only [Gen.V, Gen.hostOps0]; after_results <;> rfl

/-- Window 5's array is argument 3 transposed (the change of float format is the identity). -/
theorem V_w2 (c : Dev nD) : (V m c main_v3 : S2048x2048.Idx → EReal)
    = truncf .bf16 (transpose S2048x2048 [1, 0] (m ((c : Thread nD τ).loc main_arg3) : S2048x2048.Idx → EReal) transposes_S2048x2048_S2048x2048_1_0 : FVec Ideal S2048x2048 .f32) bitsLt_bf16_f32 := by
  dsimp only [Gen.V, Gen.hostOps0]; after_results <;> rfl

/-- Window 2's array is argument 2 recast as a row. -/
theorem V_b1 (c : Dev nD) : (V m c main_v4 : S1x2048.Idx → EReal)
    = shapeCast S1x2048 (m ((c : Thread nD τ).loc main_arg2) : S2048.Idx → EReal) shapeCasts_S2048_S1x2048 := by
  dsimp only [Gen.V, Gen.hostOps0]; after_results <;> rfl

/-- Window 3's array is argument 5 recast as a row. -/
theorem V_g1 (c : Dev nD) : (V m c main_v5 : S1x2048.Idx → EReal)
    = shapeCast S1x2048 (m ((c : Thread nD τ).loc main_arg5) : S2048.Idx → EReal) shapeCasts_S2048_S1x2048 := by
  dsimp only [Gen.V, Gen.hostOps0]; after_results <;> rfl

/-- Window 4's array is argument 6 recast as a row. -/
theorem V_be1 (c : Dev nD) : (V m c main_v6 : S1x2048.Idx → EReal)
    = shapeCast S1x2048 (m ((c : Thread nD τ).loc main_arg6) : S2048.Idx → EReal) shapeCasts_S2048_S1x2048 := by
  dsimp only [Gen.V, Gen.hostOps0]; after_results <;> rfl

/-- Window 6's array is argument 4 recast as a row. -/
theorem V_b2 (c : Dev nD) : (V m c main_v7 : S1x2048.Idx → EReal)
    = shapeCast S1x2048 (m ((c : Thread nD τ).loc main_arg4) : S2048.Idx → EReal) shapeCasts_S2048_S1x2048 := by
  dsimp only [Gen.V, Gen.hostOps0]; after_results <;> rfl

/-- Window 7's array is argument 7 recast as a row. -/
theorem V_g2 (c : Dev nD) : (V m c main_v8 : S1x2048.Idx → EReal)
    = shapeCast S1x2048 (m ((c : Thread nD τ).loc main_arg7) : S2048.Idx → EReal) shapeCasts_S2048_S1x2048 := by
  dsimp only [Gen.V, Gen.hostOps0]; after_results <;> rfl

/-- Window 8's array is argument 8 recast as a row. -/
theorem V_be2 (c : Dev nD) : (V m c main_v9 : S1x2048.Idx → EReal)
    = shapeCast S1x2048 (m ((c : Thread nD τ).loc main_arg8) : S2048.Idx → EReal) shapeCasts_S2048_S1x2048 := by
  dsimp only [Gen.V, Gen.hostOps0]; after_results <;> rfl

/-! ## The index maps, decided over the 32 points -/

/-- The input and the output move down the rows with the point; every other window stays at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each window's block at a point, read at an entry -/

/-- Row `p` of the input block at point `t` is row `256·t + p` of the input. -/
theorem x_block (c : Dev nD) (t : Fin cfg0.N) (p : Fin 256) (k : Fin 2048) (r : Fin 8192) (hr : r.val = t.val * 256 + p.val) :
    (iblk m c 0 t : S256x2048.Idx → EReal) (ix2 p k) = (m ((c : Thread nD τ).loc main_arg0) : S8192x2048.Idx → EReal) (ix2 r k) := by
  unfold iblk
  rw [View.read_apply]
  show V m c main_arg0 _ = _
  rw [V_main_arg0]
  refine congrArg _ (funext fun a => Fin.ext ?_)
  obtain ⟨e0, e1, -⟩ := idx_facts t
  match a with
  | ⟨0, _⟩ => show win0_0.index t (0 : Fin 2) * 256 + 1 * p.val = r.val; omega
  | ⟨1, _⟩ => show win0_0.index t (1 : Fin 2) * 2048 + 1 * k.val = k.val; omega

/-- Entry `(p, q)` of the output block at point `t` sits at `(256·t + p, q)` of the result. -/
theorem out_emb (t : Fin cfg0.N) (p : Fin 256) (q : Fin 2048) (r : Fin 8192) (hr : r.val = t.val * 256 + p.val) :
    ((cfg0.win 9).blk t).view.emb (ix2 p q) = (ix2 r q : S8192x2048.Idx) := by
  refine funext fun a => Fin.ext ?_
  obtain ⟨-, -, e0, e1, -⟩ := idx_facts t
  match a with
  | ⟨0, _⟩ => show win0_9.index t (0 : Fin 2) * 256 + 1 * p.val = r.val; omega
  | ⟨1, _⟩ => show win0_9.index t (1 : Fin 2) * 2048 + 1 * q.val = q.val; omega

/-- Entry `(k, q)` of window 1's block is entry `(q, k)` of argument 1. -/
theorem w1_block (c : Dev nD) (t : Fin cfg0.N) (k q : Fin 2048) :
    (iblk m c 1 t : S2048x2048.Idx → EReal) (ix2 k q) = (m ((c : Thread nD τ).loc main_arg1) : S2048x2048.Idx → EReal) (ix2 q k) := by
  have he : ((cfg0.win 1).blk t).view.emb (ix2 k q) = (ix2 k q : S2048x2048.Idx) := by
    refine funext fun a => Fin.ext ?_
    obtain ⟨-, -, -, -, e0, e1, -⟩ := idx_facts t
    match a with
    | ⟨0, _⟩ => show win0_1.index t (0 : Fin 2) * 2048 + 1 * k.val = k.val; omega
    | ⟨1, _⟩ => show win0_1.index t (1 : Fin 2) * 2048 + 1 * q.val = q.val; omega
  unfold iblk
  rw [View.read_apply, he]
  show (V m c main_v1 : S2048x2048.Idx → EReal) (ix2 k q) = _
  rw [V_w1, truncf_apply]
  exact transpose_apply [1, 0] _ transposes_S2048x2048_S2048x2048_1_0 (ix2 k q) (ix2 q k) (fun b => by
    match b with
    | ⟨0, _⟩ => rfl
    | ⟨1, _⟩ => rfl)

/-- Entry `(k, q)` of window 5's block is entry `(q, k)` of argument 3. -/
theorem w2_block (c : Dev nD) (t : Fin cfg0.N) (k q : Fin 2048) :
    (iblk m c 5 t : S2048x2048.Idx → EReal) (ix2 k q) = (m ((c : Thread nD τ).loc main_arg3) : S2048x2048.Idx → EReal) (ix2 q k) := by
  have he : ((cfg0.win 5).blk t).view.emb (ix2 k q) = (ix2 k q : S2048x2048.Idx) := by
    refine funext fun a => Fin.ext ?_
    obtain ⟨-, -, -, -, -, -, -, -, -, -, -, -, e0, e1, -⟩ := idx_facts t
    match a with
    | ⟨0, _⟩ => show win0_5.index t (0 : Fin 2) * 2048 + 1 * k.val = k.val; omega
    | ⟨1, _⟩ => show win0_5.index t (1 : Fin 2) * 2048 + 1 * q.val = q.val; omega
  unfold iblk
  rw [View.read_apply, he]
  show (V m c main_v3 : S2048x2048.Idx → EReal) (ix2 k q) = _
  rw [V_w2, truncf_apply]
  exact transpose_apply [1, 0] _ transposes_S2048x2048_S2048x2048_1_0 (ix2 k q) (ix2 q k) (fun b => by
    match b with
    | ⟨0, _⟩ => rfl
    | ⟨1, _⟩ => rfl)

/-- Entry `(0, k)` of window 2's block is entry `k` of argument 2. -/
theorem b1_block (c : Dev nD) (t : Fin cfg0.N) (k : Fin 2048) :
    (iblk m c 2 t : S1x2048.Idx → EReal) (ix2 (0 : Fin 1) k) = (m ((c : Thread nD τ).loc main_arg2) : S2048.Idx → EReal) (ix1 k) := by
  have he : ((cfg0.win 2).blk t).view.emb (ix2 (0 : Fin 1) k) = (ix2 (0 : Fin 1) k : S1x2048.Idx) := by
    refine funext fun a => Fin.ext ?_
    obtain ⟨-, -, -, -, -, -, e0, e1, -⟩ := idx_facts t
    match a with
    | ⟨0, _⟩ => show win0_2.index t (0 : Fin 2) * 1 + 1 * 0 = 0; omega
    | ⟨1, _⟩ => show win0_2.index t (1 : Fin 2) * 2048 + 1 * k.val = k.val; omega
  unfold iblk
  rw [View.read_apply, he]
  show (V m c main_v4 : S1x2048.Idx → EReal) (ix2 (0 : Fin 1) k) = _
  rw [V_b1]
  exact Cert.KernelBody.shapeCast_row_apply _ shapeCasts_S2048_S1x2048 k

/-- Entry `(0, k)` of window 3's block is entry `k` of argument 5. -/
theorem g1_block (c : Dev nD) (t : Fin cfg0.N) (k : Fin 2048) :
    (iblk m c 3 t : S1x2048.Idx → EReal) (ix2 (0 : Fin 1) k) = (m ((c : Thread nD τ).loc main_arg5) : S2048.Idx → EReal) (ix1 k) := by
  have he : ((cfg0.win 3).blk t).view.emb (ix2 (0 : Fin 1) k) = (ix2 (0 : Fin 1) k : S1x2048.Idx) := by
    refine funext fun a => Fin.ext ?_
    obtain ⟨-, -, -, -, -, -, -, -, e0, e1, -⟩ := idx_facts t
    match a with
    | ⟨0, _⟩ => show win0_3.index t (0 : Fin 2) * 1 + 1 * 0 = 0; omega
    | ⟨1, _⟩ => show win0_3.index t (1 : Fin 2) * 2048 + 1 * k.val = k.val; omega
  unfold iblk
  rw [View.read_apply, he]
  show (V m c main_v5 : S1x2048.Idx → EReal) (ix2 (0 : Fin 1) k) = _
  rw [V_g1]
  exact Cert.KernelBody.shapeCast_row_apply _ shapeCasts_S2048_S1x2048 k

/-- Entry `(0, k)` of window 4's block is entry `k` of argument 6. -/
theorem be1_block (c : Dev nD) (t : Fin cfg0.N) (k : Fin 2048) :
    (iblk m c 4 t : S1x2048.Idx → EReal) (ix2 (0 : Fin 1) k) = (m ((c : Thread nD τ).loc main_arg6) : S2048.Idx → EReal) (ix1 k) := by
  have he : ((cfg0.win 4).blk t).view.emb (ix2 (0 : Fin 1) k) = (ix2 (0 : Fin 1) k : S1x2048.Idx) := by
    refine funext fun a => Fin.ext ?_
    obtain ⟨-, -, -, -, -, -, -, -, -, -, e0, e1, -⟩ := idx_facts t
    match a with
    | ⟨0, _⟩ => show win0_4.index t (0 : Fin 2) * 1 + 1 * 0 = 0; omega
    | ⟨1, _⟩ => show win0_4.index t (1 : Fin 2) * 2048 + 1 * k.val = k.val; omega
  unfold iblk
  rw [View.read_apply, he]
  show (V m c main_v6 : S1x2048.Idx → EReal) (ix2 (0 : Fin 1) k) = _
  rw [V_be1]
  exact Cert.KernelBody.shapeCast_row_apply _ shapeCasts_S2048_S1x2048 k

/-- Entry `(0, k)` of window 6's block is entry `k` of argument 4. -/
theorem b2_block (c : Dev nD) (t : Fin cfg0.N) (k : Fin 2048) :
    (iblk m c 6 t : S1x2048.Idx → EReal) (ix2 (0 : Fin 1) k) = (m ((c : Thread nD τ).loc main_arg4) : S2048.Idx → EReal) (ix1 k) := by
  have he : ((cfg0.win 6).blk t).view.emb (ix2 (0 : Fin 1) k) = (ix2 (0 : Fin 1) k : S1x2048.Idx) := by
    refine funext fun a => Fin.ext ?_
    obtain ⟨-, -, -, -, -, -, -, -, -, -, -, -, -, -, e0, e1, -⟩ := idx_facts t
    match a with
    | ⟨0, _⟩ => show win0_6.index t (0 : Fin 2) * 1 + 1 * 0 = 0; omega
    | ⟨1, _⟩ => show win0_6.index t (1 : Fin 2) * 2048 + 1 * k.val = k.val; omega
  unfold iblk
  rw [View.read_apply, he]
  show (V m c main_v7 : S1x2048.Idx → EReal) (ix2 (0 : Fin 1) k) = _
  rw [V_b2]
  exact Cert.KernelBody.shapeCast_row_apply _ shapeCasts_S2048_S1x2048 k

/-- Entry `(0, k)` of window 7's block is entry `k` of argument 7. -/
theorem g2_block (c : Dev nD) (t : Fin cfg0.N) (k : Fin 2048) :
    (iblk m c 7 t : S1x2048.Idx → EReal) (ix2 (0 : Fin 1) k) = (m ((c : Thread nD τ).loc main_arg7) : S2048.Idx → EReal) (ix1 k) := by
  have he : ((cfg0.win 7).blk t).view.emb (ix2 (0 : Fin 1) k) = (ix2 (0 : Fin 1) k : S1x2048.Idx) := by
    refine funext fun a => Fin.ext ?_
    obtain ⟨-, -, -, -, -, -, -, -, -, -, -, -, -, -, -, -, e0, e1, -⟩ := idx_facts t
    match a with
    | ⟨0, _⟩ => show win0_7.index t (0 : Fin 2) * 1 + 1 * 0 = 0; omega
    | ⟨1, _⟩ => show win0_7.index t (1 : Fin 2) * 2048 + 1 * k.val = k.val; omega
  unfold iblk
  rw [View.read_apply, he]
  show (V m c main_v8 : S1x2048.Idx → EReal) (ix2 (0 : Fin 1) k) = _
  rw [V_g2]
  exact Cert.KernelBody.shapeCast_row_apply _ shapeCasts_S2048_S1x2048 k

/-- Entry `(0, k)` of window 8's block is entry `k` of argument 8. -/
theorem be2_block (c : Dev nD) (t : Fin cfg0.N) (k : Fin 2048) :
    (iblk m c 8 t : S1x2048.Idx → EReal) (ix2 (0 : Fin 1) k) = (m ((c : Thread nD τ).loc main_arg8) : S2048.Idx → EReal) (ix1 k) := by
  have he : ((cfg0.win 8).blk t).view.emb (ix2 (0 : Fin 1) k) = (ix2 (0 : Fin 1) k : S1x2048.Idx) := by
    refine funext fun a => Fin.ext ?_
    obtain ⟨-, -, -, -, -, -, -, -, -, -, -, -, -, -, -, -, -, -, e0, e1⟩ := idx_facts t
    match a with
    | ⟨0, _⟩ => show win0_8.index t (0 : Fin 2) * 1 + 1 * 0 = 0; omega
    | ⟨1, _⟩ => show win0_8.index t (1 : Fin 2) * 2048 + 1 * k.val = k.val; omega
  unfold iblk
  rw [View.read_apply, he]
  show (V m c main_v9 : S1x2048.Idx → EReal) (ix2 (0 : Fin 1) k) = _
  rw [V_be2]
  exact Cert.KernelBody.shapeCast_row_apply _ shapeCasts_S2048_S1x2048 k

/-! ## What a point writes back, the cover, the run -/

/-- What point `t` writes back is block `t` of `whole`. -/
theorem flushed_eq (c : Dev nD) (t : Fin cfg0.N) :
    (dats m 0 c).flushed 9 t = ((cfg0.win 9).blk t).view.read (Elt Ideal) (whole m c) := by
  rw [Cert.KernelIdeal.Value.flushed9]
  unfold out0_9
  rw [View.canon_unit_zero hz]
  simp only [View.ld_unit_zero (S := S256x2048) hz, View.ld_unit_zero (S := S1x2048) hz, View.ld_unit_zero (S := S2048x2048) hz]
  funext j
  obtain ⟨p, q, rfl⟩ : ∃ (p : Fin 256) (q : Fin 2048), j = ix2 p q := ⟨j 0, j 1, eq_ix2 j⟩
  have hN : grid0.N = 32 := N_0
  have ht : t.val < 32 := hN ▸ t.isLt
  have hp : p.val < 256 := p.isLt
  obtain ⟨r, hr⟩ : ∃ r : Fin 8192, r.val = t.val * 256 + p.val := ⟨⟨t.val * 256 + p.val, by omega⟩, rfl⟩
  rw [View.read_apply, out_emb t p q r hr]
  refine (Body.stored_apply (iblk m c 0 t) (iblk m c 3 t) (iblk m c 4 t) (iblk m c 1 t) (iblk m c 2 t)
    (iblk m c 7 t) (iblk m c 8 t) (iblk m c 5 t) (iblk m c 6 t) p q).trans ?_
  show _ = Rows.block _ _ _ _ _ _ _ _ _ q
  simp only [x_block m c t p _ r hr, w1_block, w2_block, b1_block, g1_block, be1_block, b2_block, g2_block, be2_block]

/-- An index of the result is in point `t`'s block iff each coordinate is in the block's range on its axis. -/
theorem mem_blk (t : Fin cfg0.N) (i : S8192x2048.Idx) :
    i ∈ ((cfg0.win 9).blk t).view.set ↔ ∀ a : Fin 2, win0_9.index t a * S256x2048.size a ≤ (i a).val ∧ (i a).val < win0_9.index t a * S256x2048.size a + S256x2048.size a := by
  show i ∈ ((View.whole main_v10).slice (win0_9.rect t)).set ↔ _
  rw [View.set_slice_whole, Rect.mem_set_unit]
  exact Iff.rfl

/-- Every index of the result is in some point's block: row `i` is in block `i / 256`. -/
theorem cover (i : S8192x2048.Idx) : ∃ t : Fin cfg0.N, (cfg0.win 9).flush t = true ∧ i ∈ ((cfg0.win 9).blk t).view.set := by
  have hN : grid0.N = 32 := N_0
  have hi0 : (i 0).val < 8192 := (i 0).isLt
  have hi1 : (i 1).val < 2048 := (i 1).isLt
  obtain ⟨t, ht⟩ : ∃ t : Fin cfg0.N, t.val = (i 0).val / 256 :=
    ⟨⟨(i 0).val / 256, by show (i 0).val / 256 < grid0.N; omega⟩, rfl⟩
  refine ⟨t, flush0_9 t, ?_⟩
  rw [mem_blk]
  obtain ⟨-, -, e0, e1, -⟩ := idx_facts t
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 2048 ≤ (i 1).val ∧ (i 1).val < win0_9.index t (1 : Fin 2) * 2048 + 2048; omega

/-- So the result array ends holding `whole`. -/
theorem final (c : Dev nD) : (dats m 0 c).arrAt 9 cfg0.N = whole m c :=
  (dats m 0 c).arrAt_eq_of_cover 9 (whole m c) (fun t _ => flushed_eq m c t) cover

/-- The kernel's run: the result array at `whole`, the arguments unchanged. -/
theorem run : θ_run defs (onTc (τ := τ) (main (F := Ideal))) ⟨m, fun _ => 0, ρ⟩ fun r => ∀ c : Dev nD,
      r.2.mem ((c : Thread nD τ).loc main_v10) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Whole

end
-- ==== Proof.RefRows.lean ====
/-
  The reference program at one entry of its result.

  The reference works on the whole 8192 × 2048 array, one array operation at a time; the generated module reads
  each operation at an index.  Chained, they say: the column of row means at row `r` is the mean of row `r`; the
  centred array at `(r, c)` is the entry minus that mean; the column of reciprocal roots at `r` is that of row `r`;
  the normalised array at `(r, c)` is the normalisation of row `r` at `c`; and the matrix product with the
  transposed weights, plus the bias, at `(r, c)` is the affine map of the normalised row at `c`.

  The second half of the program applies the same operations, with the same constants, to the clipped result of
  the first half: its stages ARE the first half's stages at that array, so the one chain serves both halves.
-/
import proofs.«105974_j57140244906119_2_alg».proof.Proof.Gen.ReferenceIdeal.Read
import proofs.«105974_j57140244906119_2_alg».proof.Proof.Rows
import Idealize.ShloMosaic.Lib.ValueIdx
import Idealize.ShloMosaic.PureOps.Ideal.Laws

noncomputable section

namespace Cert.ReferenceIdeal.RowsRead

open Cert.ReferenceIdeal Cert.ReferenceIdeal.Gen Cert.ReferenceIdeal.Read Idealize.ShloMosaic Idealize.ShloMosaic.ValueIdx

/-- An 8192 × 2048 array, a 2048 × 2048 matrix and a length-2048 vector of extended reals, as the generated module types them. -/
abbrev Arr : Type := (⟨S8192x2048, .f32⟩ : BufTy).Contents (Elt Ideal)
abbrev Mat : Type := (⟨S2048x2048, .f32⟩ : BufTy).Contents (Elt Ideal)
abbrev Row : Type := (⟨S2048, .f32⟩ : BufTy).Contents (Elt Ideal)

/-- The column of row means at row `r` is the mean of that row: the host's sum starts from the zero word. -/
theorem mean_at (Y : Arr) (r : Fin 8192) :
    val_main_v3 (F := Ideal) Y (ix2 r (0 : Fin 1)) = Rows.mean (fun k => Y (ix2 r k)) := by
  rw [val_main_v3_apply, val_main_v1_apply, val_main_v0_apply, val_main_v2_apply, val_main_cst_0_apply, val_main_cst_apply]
  unfold Rows.mean
  simp only [Ideal.hostDivf_def, Ideal.ofBits_def, Ideal.ofBits_zero_f32, zero_add]
  refine congrArg (fun s => Ideal.div s _) (Finset.sum_congr rfl fun k _ => congrArg Y (funext fun a => Fin.ext ?_))
  match a with
  | ⟨0, _⟩ => rfl
  | ⟨1, _⟩ => rfl

/-- The centred array (as the variance reads it) at `(r, c)`. -/
theorem centred_at (Y : Arr) (r : Fin 8192) (c : Fin 2048) :
    val_main_v5 (F := Ideal) Y (ix2 r c) = Y (ix2 r c) - Rows.mean (fun k => Y (ix2 r k)) := by
  have h : idx_main_v4 (ix2 r c) = ix2 r (0 : Fin 1) := funext fun a => Fin.ext (by
    match a with
    | ⟨0, _⟩ => rfl
    | ⟨1, _⟩ => rfl)
  rw [val_main_v5_apply, val_main_v4_apply, h, mean_at]
  rfl

/-- The centred array (as the normalisation reads it) at `(r, c)`: the same. -/
theorem centred_at' (Y : Arr) (r : Fin 8192) (c : Fin 2048) :
    val_main_v12 (F := Ideal) Y (ix2 r c) = Y (ix2 r c) - Rows.mean (fun k => Y (ix2 r k)) := by
  have h : idx_main_v11 (ix2 r c) = ix2 r (0 : Fin 1) := funext fun a => Fin.ext (by
    match a with
    | ⟨0, _⟩ => rfl
    | ⟨1, _⟩ => rfl)
  rw [val_main_v12_apply, val_main_v11_apply, h, mean_at]
  rfl

/-- The column of reciprocal roots at row `r` is that of the row. -/
theorem rstd_at (Y : Arr) (r : Fin 8192) :
    val_main_v15 (F := Ideal) Y (ix2 r (0 : Fin 1)) = Rows.rstd (fun k => Y (ix2 r k)) := by
  have hj : ∀ k : Fin 2048, idx_main_v7 (idx_main_v8 (ix2 r (0 : Fin 1))) k = ix2 r k := fun k => funext fun a => Fin.ext (by
    match a with
    | ⟨0, _⟩ => rfl
    | ⟨1, _⟩ => rfl)
  rw [val_main_v15_apply, val_main_v14_apply, val_main_v10_apply, val_main_v8_apply, val_main_v7_apply, val_main_v9_apply,
    val_main_cst_2_apply, val_main_v13_apply, val_main_cst_3_apply, val_main_cst_1_apply]
  unfold Rows.rstd
  simp only [hj, val_main_v6_apply, centred_at, Ideal.hostUnary_rsqrt_def, Ideal.addf_def, Ideal.hostDivf_def, Ideal.mulf_def,
    Ideal.ofBits_def, Ideal.ofBits_zero_f32, zero_add]
  rfl

/-- The normalised array at `(r, c)` is the normalisation of row `r` at `c`. -/
theorem norm_at (Y : Arr) (g be : Row) (r : Fin 8192) (c : Fin 2048) :
    val_main_v23 (F := Ideal) Y g be (ix2 r c)
      = Rows.norm (fun k => Y (ix2 r k)) (fun k => g (ix1 k)) (fun k => be (ix1 k)) c := by
  have hg : idx_main_v18 (idx_main_v19 (ix2 r c)) = ix1 c := funext fun a => Fin.ext (by
    match a with
    | ⟨0, _⟩ => rfl)
  have hb : idx_main_v21 (idx_main_v22 (ix2 r c)) = ix1 c := funext fun a => Fin.ext (by
    match a with
    | ⟨0, _⟩ => rfl)
  have h16 : idx_main_v16 (ix2 r c) = ix2 r (0 : Fin 1) := funext fun a => Fin.ext (by
    match a with
    | ⟨0, _⟩ => rfl
    | ⟨1, _⟩ => rfl)
  rw [val_main_v23_apply, val_main_v20_apply, val_main_v17_apply, centred_at', val_main_v16_apply, h16, rstd_at,
    val_main_v19_apply, val_main_v18_apply, hg, val_main_v22_apply, val_main_v21_apply, hb]
  rfl

/-- The product with the transposed weights plus the bias, at `(r, c)`, is the affine map of the normalised row `r` at
    `c`: the transposed matrix at `(k, c)` is the matrix at `(c, k)`. -/
theorem affine_norm_at (Y : Arr) (W : Mat) (b g be : Row) (r : Fin 8192) (c : Fin 2048) :
    val_main_v28 (F := Ideal) Y W b g be (ix2 r c)
      = Rows.affine (Rows.norm (fun k => Y (ix2 r k)) (fun k => g (ix1 k)) (fun k => be (ix1 k)))
          (fun c k => W (ix2 c k)) (fun k => b (ix1 k)) c := by
  have hl : ∀ k : Fin 2048, lidx_main_v25 (ix2 r c) k = ix2 r k := fun k => funext fun a => Fin.ext (by
    match a with
    | ⟨0, _⟩ => rfl
    | ⟨1, _⟩ => rfl)
  have hr : ∀ k : Fin 2048, idx_main_v24 (ridx_main_v25 (ix2 r c) k) = ix2 c k := fun k => funext fun a => Fin.ext (by
    match a with
    | ⟨0, _⟩ => rfl
    | ⟨1, _⟩ => rfl)
  have hb : idx_main_v26 (idx_main_v27 (ix2 r c)) = ix1 c := funext fun a => Fin.ext (by
    match a with
    | ⟨0, _⟩ => rfl)
  rw [val_main_v28_apply, val_main_v25_apply, val_main_v27_apply, val_main_v26_apply, hb]
  unfold Rows.affine
  refine congrArg (fun s => s + b (ix1 c)) (Finset.sum_congr rfl fun k _ => ?_)
  rw [val_main_v24_apply, hr, hl, norm_at]

/-- The clipped first half at `(r, c)` is the hidden row of row `r` at `c`. -/
theorem hidden_at (X : Arr) (W1 : Mat) (b1 g1 be1 : Row) (r : Fin 8192) (c : Fin 2048) :
    val_main_v29 (F := Ideal) X W1 b1 g1 be1 (ix2 r c)
      = Rows.hidden (fun k => X (ix2 r k)) (fun k => g1 (ix1 k)) (fun k => be1 (ix1 k)) (fun c k => W1 (ix2 c k)) (fun k => b1 (ix1 k)) c := by
  rw [val_main_v29_apply, affine_norm_at, val_main_call0_v0_apply, val_main_call0_cst_apply]
  rfl

/-- The second half's product-plus-bias stage is the first half's, at the clipped first half. -/
theorem second_half (x0 : Arr) (x1 : Mat) (x2 : Row) (x3 : Mat) (x4 x5 x6 x7 x8 : Row) :
    val_main_v58 (F := Ideal) x0 x1 x2 x3 x4 x5 x6 x7 x8
      = val_main_v28 (F := Ideal) (val_main_v29 (F := Ideal) x0 x1 x2 x5 x6) x3 x4 x7 x8 := rfl

/-- The reference's result is the block applied row by row. -/
theorem result_eq (x0 : Arr) (x1 : Mat) (x2 : Row) (x3 : Mat) (x4 x5 x6 x7 x8 : Row) :
    val_main_v60 (F := Ideal) x0 x1 x2 x3 x4 x5 x6 x7 x8 = Rows.result x0 x1 x2 x3 x4 x5 x6 x7 x8 := by
  funext i
  obtain ⟨r, c, rfl⟩ : ∃ (r : Fin 8192) (c : Fin 2048), i = ix2 r c := ⟨i 0, i 1, eq_ix2 i⟩
  rw [val_main_v60_apply, val_main_v59_apply, second_half, affine_norm_at, val_main_call1_v0_apply, val_main_call1_cst_apply]
  unfold Rows.result Rows.block
  simp only [hidden_at]
  rfl

end Cert.ReferenceIdeal.RowsRead

end
-- ==== Proof.lean ====
/-
  A residual block of two normalised linear layers: each row of the 8192 × 2048 input is normalised, sent through
  an affine map, clipped at zero, normalised again, sent through a second affine map, added to the input row and
  clipped.  The kernel does this 256 rows at a time with the weights transposed beforehand and its matrix
  products fed in a narrower float format; the reference does it on the whole array, one array operation at a time.

  Read over the extended reals, where a change of float format is the identity and a sum has no order, both
  compute the same function of a row (Proof/Rows.lean).  The kernel's block at a point is that function of the
  point's rows (Proof/KernelBody.lean), the 32 blocks tile the result (Proof/KernelWhole.lean), and the
  reference's chain of operations read at an index is the same function (Proof/RefRows.lean).  The only algebra
  between the two is that the kernel multiplies the centred entry by (reciprocal root · gain) where the reference
  multiplies (centred entry · reciprocal root) by the gain: associativity of multiplication, which holds at the
  infinities too, so the inputs' finiteness is not used.  The idealisation rewrote no operation, so its
  soundness claim has no conjunct.
-/
import proofs.«105974_j57140244906119_2_alg».proof.Defs
import proofs.«105974_j57140244906119_2_alg».proof.Proof.Gen.Kernel
import proofs.«105974_j57140244906119_2_alg».proof.Proof.Gen.Kernel.Skeleton
import proofs.«105974_j57140244906119_2_alg».proof.Proof.Gen.Kernel.Launch
import proofs.«105974_j57140244906119_2_alg».proof.Proof.Gen.Kernel.Points
import proofs.«105974_j57140244906119_2_alg».proof.Proof.Gen.Kernel.Frame
import proofs.«105974_j57140244906119_2_alg».proof.Proof.Gen.KernelIdeal
import proofs.«105974_j57140244906119_2_alg».proof.Proof.Gen.KernelIdeal.Skeleton
import proofs.«105974_j57140244906119_2_alg».proof.Proof.Gen.KernelIdeal.Launch
import proofs.«105974_j57140244906119_2_alg».proof.Proof.Gen.KernelIdeal.Points
import proofs.«105974_j57140244906119_2_alg».proof.Proof.Gen.KernelIdeal.Frame
import proofs.«105974_j57140244906119_2_alg».proof.Proof.Gen.ReferenceIdeal
import proofs.«105974_j57140244906119_2_alg».proof.Proof.Gen.Pre_finite_inputs
import proofs.«105974_j57140244906119_2_alg».proof.Proof.Gen.KernelIdeal.Value
import proofs.«105974_j57140244906119_2_alg».proof.Proof.Gen.ReferenceIdeal.Run
import proofs.«105974_j57140244906119_2_alg».proof.Proof.Gen.ReferenceIdeal.Read
import proofs.«105974_j57140244906119_2_alg».proof.Proof.KernelWhole
import proofs.«105974_j57140244906119_2_alg».proof.Proof.RefRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the block function of the arguments, row by
    row, in their result arrays. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v60_eq, Cert.ReferenceIdeal.RowsRead.result_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
